-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S512x256 : Shape := ⟨2, ![512, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2048x256 .f32) (main_arg1 : FVec F S512x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Kernel.lean ====
abbrev S2048x256 : Shape := ⟨2, ![2048, 256]⟩
abbrev S512x256 : Shape := ⟨2, ![512, 256]⟩
abbrev S2048x512 : Shape := ⟨2, ![2048, 512]⟩
abbrev S128x256 : Shape := ⟨2, ![128, 256]⟩
abbrev S128x128 : Shape := ⟨2, ![128, 128]⟩
abbrev S128x1x128 : Shape := ⟨3, ![128, 1, 128]⟩
abbrev S1x128x128 : Shape := ⟨3, ![1, 128, 128]⟩
abbrev S128x128x128 : Shape := ⟨3, ![128, 128, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x256, .f32⟩
  | .hbm, ⟨1, _⟩ => ⟨S512x256, .f32⟩
  | .hbm, ⟨2, _⟩ => ⟨S2048x512, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x256_S128x128_0_0 : ∀ a, (![0, 0] : Fin 2 → Nat) a + S128x128.size a ≤ S128x256.size a
  shapeCasts_S128x128_S128x1x128 : S128x128.ShapeCasts S128x1x128
  shapeCasts_S128x128_S1x128x128 : S128x128.ShapeCasts S1x128x128
  broadcasts_S1x128x128_S128x128x128 : S1x128x128.Broadcasts S128x128x128
  broadcasts_S128x1x128_S128x128x128 : S128x1x128.Broadcasts S128x128x128
  shapeCasts_S128x1x128_S128x1x128 : S128x1x128.ShapeCasts S128x1x128
  reduces_S128x128x128_S128x128 : S128x128x128.Reduces [2] S128x128
  inb_S128x256_S128x128_0_128 : ∀ a, (![0, 128] : Fin 2 → Nat) a + S128x128.size a ≤ S128x256.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S2048x256.size a
  hwx0_0 : ∀ i : grid0.Coords, EltTy.bits .f32 = 32 ∨ (Rect.block (s := S2048x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S512x256.size a
  hwx0_1 : ∀ i : grid0.Coords, EltTy.bits .f32 = 32 ∨ (Rect.block (s := S512x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S2048x512.size a
  hwx0_2 : ∀ i : grid0.Coords, EltTy.bits .f32 = 32 ∨ (Rect.block (s := S2048x512) S128x128.size (cc0_transform_2 i) (hinb0_2 i)).WholeWords (EltTy.packing .f32)

variable [Facts₀]

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x256 : Shape := ⟨2, ![2048, 256]⟩
abbrev S512x256 : Shape := ⟨2, ![512, 256]⟩
abbrev S2048x1x256 : Shape := ⟨3, ![2048, 1, 256]⟩
abbrev S1x512x256 : Shape := ⟨3, ![1, 512, 256]⟩
abbrev S2048x512x256 : Shape := ⟨3, ![2048, 512, 256]⟩
abbrev S_ : Shape := ⟨0, ![]⟩
abbrev S2048x512 : Shape := ⟨2, ![2048, 512]⟩

abbrev nBuf : Space → Nat
  | .hbm => 16
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S512x256, .f32⟩
  | .hbm, ⟨2, _⟩ => ⟨S2048x1x256, .f32⟩
  | .hbm, ⟨3, _⟩ => ⟨S1x512x256, .f32⟩
  | .hbm, ⟨4, _⟩ => ⟨S2048x512x256, .f32⟩
  | .hbm, ⟨5, _⟩ => ⟨S2048x512x256, .f32⟩
  | .hbm, ⟨6, _⟩ => ⟨S2048x512x256, .i1⟩
  | .hbm, ⟨7, _⟩ => ⟨S_, .f32⟩
  | .hbm, ⟨8, _⟩ => ⟨S2048x512x256, .f32⟩
  | .hbm, ⟨9, _⟩ => ⟨S2048x512x256, .f32⟩
  | .hbm, ⟨10, _⟩ => ⟨S2048x512x256, .f32⟩
  | .hbm, ⟨11, _⟩ => ⟨S_, .f32⟩
  | .hbm, ⟨12, _⟩ => ⟨S2048x512, .f32⟩
  | .hbm, ⟨13, _⟩ => ⟨S_, .f32⟩
  | .hbm, ⟨14, _⟩ => ⟨S2048x512, .f32⟩
  | .hbm, ⟨15, _⟩ => ⟨S2048x512, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_call0_v0 : Ref sig .tc := ⟨.hbm, 8, rfl⟩
abbrev main_call0_v1 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S2048x256_S2048x1x256_0_2 : S2048x256.BroadcastsInDim S2048x1x256 (![0, 2] : Fin 2 → Fin S2048x1x256.rank)
  bcast_S512x256_S1x512x256_1_2 : S512x256.BroadcastsInDim S1x512x256 (![1, 2] : Fin 2 → Fin S1x512x256.rank)
  bcast_S1x512x256_S2048x512x256_0_1_2 : S1x512x256.BroadcastsInDim S2048x512x256 (![0, 1, 2] : Fin 3 → Fin S2048x512x256.rank)
  bcast_S2048x1x256_S2048x512x256_0_1_2 : S2048x1x256.BroadcastsInDim S2048x512x256 (![0, 1, 2] : Fin 3 → Fin S2048x512x256.rank)
  bcast_S_S2048x512x256 : S_.BroadcastsInDim S2048x512x256 (![] : Fin 0 → Fin S2048x512x256.rank)
  reducesTo_S2048x512x256_S2048x512_d2 : S2048x512x256.ReducesTo [2] S2048x512
  h_S_ : 0 < S_.numel
  bcast_S_S2048x512 : S_.BroadcastsInDim S2048x512 (![] : Fin 0 → Fin S2048x512.rank)

variable [Facts₀]

class Facts : Prop extends Facts₀ where

variable [Facts]
-- ==== Proof.Spec.lean ====
/-
  The mathematics of the certificate, with no program in sight.

  For a batch row `x` and a probe row `p` (each 256 extended reals) the result entry is the MEAN over the 256
  positions of the Gödel implication `p_k → x_k`, read as the programs compute it: `1` where `p_k ≤ x_k`, else
  `x_k`.  One program takes the mean as "the sum of all 256 terms, divided by 256"; the other adds the first 128
  terms, then the last 128 terms, to a zero accumulator and multiplies by the binary fraction `2⁻⁸`.  On the extended
  reals both are the same number: a finite sum may be split into two halves (addition is commutative and associative,
  infinite terms included), adding zero changes nothing, and division by the real number 256 IS multiplication by
  `1/256` at every extended real, the infinities too.  No finiteness of the inputs is needed.
-/
import Idealize.ShloMosaic.PureOps.Ideal
import Idealize.ShloMosaic.PureOps.Ideal.Laws
import Idealize.ShloMosaic.Lib.ValueIdx

noncomputable section

open scoped BigOperators

namespace Cert.GodelMean

open Idealize.ShloMosaic Idealize.ShloMosaic.ValueIdx

/-- The Gödel implication `p → x` as both programs spell it: the float `1.0` where `p ≤ x`, else `x`. -/
def impl (x p : EReal) : EReal :=
  Scalar.select (FloatOps.cmpf (F := Ideal) (φ := .f32) .ole p x) (Ideal.ofBits .f32 0x3F800000#32) x

/-- Position `k` of the first half of a row of 256. -/
def lo (k : Fin 128) : Fin 256 := ⟨k.val, by omega⟩
/-- Position `k` of the second half: `128 + k`. -/
def hi (k : Fin 128) : Fin 256 := ⟨128 + k.val, by omega⟩

/-- The mean as a sum over all 256 positions from the float zero, divided by the float `256.0`. -/
def mean (g : Fin 256 → EReal) : EReal :=
  Ideal.div (Ideal.ofBits .f32 0x00000000#32 + ∑ k : Fin 256, g k) (Ideal.ofBits .f32 0x43800000#32)

/-- The mean as two half sums added in turn to the float zero, times the float `0.00390625`. -/
def chunked (g : Fin 256 → EReal) : EReal :=
  ((Ideal.ofBits .f32 0x00000000#32 + ∑ k : Fin 128, g (lo k)) + ∑ k : Fin 128, g (hi k))
    * Ideal.ofBits .f32 0x3B800000#32

/-- The float `256.0` denotes the real number 256. -/
theorem ofBits_256 : Ideal.ofBits .f32 0x43800000#32 = ((256 : ℝ) : EReal) := by
  simp [Ideal.ofBits, Ideal.ieee, -EReal.coe_mul]; norm_num

/-- The float `0.00390625` denotes exactly `1/256 = 2⁻⁸`. -/
theorem ofBits_inv256 : Ideal.ofBits .f32 0x3B800000#32 = ((1 / 256 : ℝ) : EReal) := by
  simp [Ideal.ofBits, Ideal.ieee, -EReal.coe_mul]; norm_num

/-- A sum over 256 positions is the sum over the first 128 plus the sum over the last 128. -/
theorem sum_halves (g : Fin 256 → EReal) :
    ∑ k : Fin 256, g k = ∑ k : Fin 128, g (lo k) + ∑ k : Fin 128, g (hi k) :=
  Fin.sum_univ_add (a := 128) (b := 128) g

/-- THE LAW that joins the two programs: the chunked mean is the mean. -/
theorem chunked_eq_mean (g : Fin 256 → EReal) : chunked g = mean g := by
  unfold chunked mean
  rw [Ideal.ofBits_zero_f32, zero_add, zero_add, ofBits_256, ofBits_inv256,
    Ideal.div_coe (by norm_num : (256 : ℝ) ≠ 0), sum_halves]

/-- The result at batch row `b` and probe row `q`: the mean over the 256 positions of `P[q,k] → X[b,k]`. -/
def entry (X : (⟨2, ![2048, 256]⟩ : Shape).Idx → EReal) (P : (⟨2, ![512, 256]⟩ : Shape).Idx → EReal)
    (b : Fin 2048) (q : Fin 512) : EReal :=
  mean fun k => impl (X (ix2 b k)) (P (ix2 q k))

/-- THE SPECIFICATION: the whole [2048, 512] result as one function of the two argument arrays. -/
def result (X : (⟨2, ![2048, 256]⟩ : Shape).Idx → EReal) (P : (⟨2, ![512, 256]⟩ : Shape).Idx → EReal) :
    (⟨2, ![2048, 512]⟩ : Shape).Idx → EReal :=
  fun i => entry X P (i 0) (i 1)

theorem result_ix2 (X : (⟨2, ![2048, 256]⟩ : Shape).Idx → EReal) (P : (⟨2, ![512, 256]⟩ : Shape).Idx → EReal)
    (b : Fin 2048) (q : Fin 512) : result X P (ix2 b q) = entry X P b q := rfl

end Cert.GodelMean

end
-- ==== Proof.RefValue.lean ====
/-
  The reference computes the specification.

  Entry `(b, q)` of the reference's result is read one host operation at a time: the quotient by the broadcast
  `256.0` of the sum, from the zero, over the last axis `k` of the select at `(b, q, k)`; the select's condition
  compares the probes broadcast from `[512, 256]` (read at `(q, k)`) with the batch broadcast from `[2048, 256]`
  (read at `(b, k)`), its first branch is the broadcast `1.0`, its second the batch again.  That is the mean of the
  Gödel implication `P[q,k] → X[b,k]` over `k`, term for term.
-/
import proofs.«133339_j89498528514849_1_alg».proof.Proof.Gen.ReferenceIdeal.Read
import proofs.«133339_j89498528514849_1_alg».proof.Proof.Spec
import Idealize.ShloMosaic.Lib.ValueIdx

noncomputable section

open scoped BigOperators

namespace Cert.ReferenceIdeal.RefValue

open Cert.ReferenceIdeal Cert.ReferenceIdeal.Read Idealize.ShloMosaic Idealize.ShloMosaic.ValueIdx Cert.GodelMean

/-- Through the reduce, the select's second branch and the two broadcasts, the batch is read at `(b, k)`. -/
theorem batch_idx_sel (b : Fin 2048) (q : Fin 512) (k : Fin 256) :
    idx_main_v0 (idx_main_call0_v1 (idx_main_v6 (ix2 b q) k)) = ix2 b k :=
  funext fun a => Fin.ext (by match a with | ⟨0, _⟩ => rfl | ⟨1, _⟩ => rfl)

/-- Through the reduce, the comparison's right operand and the two broadcasts, the batch is read at `(b, k)`. -/
theorem batch_idx_cmp (b : Fin 2048) (q : Fin 512) (k : Fin 256) :
    idx_main_v0 (idx_main_v3 (idx_main_v6 (ix2 b q) k)) = ix2 b k :=
  funext fun a => Fin.ext (by match a with | ⟨0, _⟩ => rfl | ⟨1, _⟩ => rfl)

/-- Through the reduce, the comparison's left operand and the two broadcasts, the probes are read at `(q, k)`. -/
theorem probe_idx_cmp (b : Fin 2048) (q : Fin 512) (k : Fin 256) :
    idx_main_v1 (idx_main_v2 (idx_main_v6 (ix2 b q) k)) = ix2 q k :=
  funext fun a => Fin.ext (by match a with | ⟨0, _⟩ => rfl | ⟨1, _⟩ => rfl)

/-- THE REFERENCE'S RESULT IS THE SPECIFICATION, index by index. -/
theorem ref_eq_result (X : (⟨S2048x256, .f32⟩ : BufTy).Contents (Elt Ideal)) (P : (⟨S512x256, .f32⟩ : BufTy).Contents (Elt Ideal)) :
    val_main_v8 (F := Ideal) X P = result X P := by
  funext i
  obtain ⟨b, q, rfl⟩ : ∃ (b : Fin 2048) (q : Fin 512), i = ix2 b q := ⟨i 0, i 1, eq_ix2 i⟩
  rw [result_ix2, val_main_v8_apply, val_main_v6_apply, val_main_v7_apply, val_main_cst_1_apply, val_main_cst_0_apply]
  simp only [val_main_v5_apply, val_main_v4_apply, val_main_call0_v0_apply, val_main_cst_apply, val_main_call0_v1_apply,
    val_main_v2_apply, val_main_v1_apply, val_main_v3_apply, val_main_v0_apply, batch_idx_sel, batch_idx_cmp, probe_idx_cmp]
  rfl

end Cert.ReferenceIdeal.RefValue

end
-- ==== Proof.BodyValue.lean ====
/-
  What the kernel body leaves in its output block, as ONE pure term of its two input blocks.

  At every grid point the body zeroes its [128, 128] accumulator, adds to it the reduction over the first 128 columns
  of the two [128, 256] input blocks, adds the reduction over the last 128 columns, and stores the accumulator times
  a constant into the output block.  Each of the accumulator's stores covers it whole, and each of its loads reads it
  whole, so every load of the accumulator reads exactly the payload stored just before it; the output block is
  stored once, whole.  Threading the payloads through one another gives the term `bodyVal` below.  This holds for
  every reading of the float operations.
-/
import proofs.«133339_j89498528514849_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.BodyValue

open Cert.KernelIdeal Cert.KernelIdeal.Gen

variable {F : FTy → Type} [FloatOps F]

theorem hz : (![0, 0] : Fin 2 → Nat) = fun _ => 0 := funext fun a => by fin_cases a <;> rfl

/-- Columns 0 … 127 of a [128, 256] block, all 128 rows. -/
abbrev loCols : Rect S128x256 := Rect.unit (s := S128x256) ![0, 0] S128x128.size inb_S128x256_S128x128_0_0
/-- Columns 128 … 255 of a [128, 256] block, all 128 rows. -/
abbrev hiCols : Rect S128x256 := Rect.unit (s := S128x256) ![0, 128] S128x128.size inb_S128x256_S128x128_0_128

/-- The body's result block as a pure term of the batch block `x0` and the probe block `x1`: the zero block, plus the
    first half's reduction, plus the second half's, scaled. -/
def bodyVal (x0 x1 : Vec F S128x256 .f32) : Vec F S128x128 .f32 :=
  k0_pay2 (k0_pay1 (k0_pay5 (View.ld x0 hiCols) (View.ld x1 hiCols)
    (k0_pay4 (View.ld x0 loCols) (View.ld x1 loCols) k0_pay3)))

/-- The output block after the body, on any staging buffers, IS that term of the input blocks. -/
theorem out_eq_bodyVal (c : Dev nD) (i : grid0.Coords) (a2 : Memref sig .tc .vmem S128x256 .f32) (h2 : a2.IsWhole)
    (a3 : Memref sig .tc .vmem S128x256 .f32) (h3 : a3.IsWhole) (a4 : Memref sig .tc .vmem S128x128 .f32) (h4 : a4.IsWhole)
    (a5 : Memref sig .tc .vmem S128x128 .f32) (h5 : a5.IsWhole) (x0 x1 : Vec F S128x256 .f32) :
    out0_A_2 c i a2 h2 a3 h3 a4 h4 a5 h5 x0 x1 = bodyVal x0 x1 := by
  unfold out0_A_2
  rw [View.read_writes_eq_canon _ _ _ (cover0_A_2 c i a2 h2 a3 h3 a4 h4 a5 h5 x0 x1)]
  unfold kernelRun0_A
  dsimp only
  sl_unfold_words
  rw [View.canon_unit_zero hz]
  simp only [View.readCov_cons_toLoadRect, View.readAt_eq_ld, h2.read_unread, h3.read_unread]
  rfl

end Cert.KernelIdeal.BodyValue

end
-- ==== Proof.BodyAt.lean ====
/-
  The kernel body's result block, read at one entry, at the ideal reading of the float operations.

  Entry `(r, q)` of the [128, 128] block depends on row `r` of the batch block and row `q` of the probe block.  Each of
  the two half reductions views the batch half as [128, 1, 128] and the probe half as [1, 128, 128], broadcasts both to
  [128, 128, 128] — so position `(r, q, k)` holds batch `(r, k)` and probe `(q, k)` —, selects `1` or the batch value
  by the comparison, and sums over the last axis; on the extended reals that reduction is the plain sum over `k`.
  The first half reads columns `k`, the second columns `128 + k`.  So the entry is the chunked mean of the Gödel
  implication along the two rows.
-/
import proofs.«133339_j89498528514849_1_alg».proof.Proof.BodyValue
import proofs.«133339_j89498528514849_1_alg».proof.Proof.Spec
import Idealize.ShloMosaic.Lib.ValueIdx
import Idealize.ShloMosaic.Lib.ValueLayout
import Idealize.ShloMosaic.PureOps.Ideal.Laws

noncomputable section

open scoped BigOperators

open Idealize.ShloMosaic Idealize.ShloMosaic.TcCoe Idealize.SL.Sem

namespace Cert.KernelIdeal.BodyAt

open Cert.KernelIdeal Cert.KernelIdeal.Gen Cert.KernelIdeal.BodyValue Idealize.ShloMosaic.ValueIdx Cert.GodelMean

/-! ## The layout operations of one half, read at an index -/

section Layout
variable {α : Type}

/-- A [128, 128] block viewed [128, 1, 128] reads, at `(r, u, k)`, the block at `(r, k)`. -/
theorem cast_mid_unit_apply (x : S128x128.Idx → α) (h : S128x128.ShapeCasts S128x1x128) (r : Fin 128) (u : Fin 1) (k : Fin 128) :
    shapeCast S128x1x128 x h (ix3 r u k) = x (ix2 r k) :=
  shapeCast_apply x h _ _ (by
    have hu : u.val = 0 := by omega
    rw [Shape.rowMajor_val_two, Shape.rowMajor_val_three]
    show r.val * 128 + k.val = (r.val * 1 + u.val) * 128 + k.val
    rw [hu]; omega)

/-- The batch view [128, 1, 128] broadcast to [128, 128, 128] reads, at `(r, q, k)`, the view at `(r, 0, k)`. -/
theorem bcast_batch_apply (x : S128x1x128.Idx → α) (h : S128x1x128.Broadcasts S128x128x128) (r q k : Fin 128) :
    broadcastTo S128x128x128 x h (ix3 r q k) = x (ix3 r (0 : Fin 1) k) := by
  refine broadcastTo_apply x h (ix3 r q k) (ix3 r (0 : Fin 1) k) fun ax => ?_
  match ax with
  | ⟨0, _⟩ => show r.val = if (128 : Nat) = 1 then 0 else r.val; rw [if_neg (by decide)]
  | ⟨1, _⟩ => show 0 = if (1 : Nat) = 1 then 0 else q.val; rw [if_pos rfl]
  | ⟨2, _⟩ => show k.val = if (128 : Nat) = 1 then 0 else k.val; rw [if_neg (by decide)]

/-- The probe view [1, 128, 128] broadcast to [128, 128, 128] reads, at `(r, q, k)`, the view at `(0, q, k)`. -/
theorem bcast_probe_apply (x : S1x128x128.Idx → α) (h : S1x128x128.Broadcasts S128x128x128) (r q k : Fin 128) :
    broadcastTo S128x128x128 x h (ix3 r q k) = x (ix3 (0 : Fin 1) q k) := by
  refine broadcastTo_apply x h (ix3 r q k) (ix3 (0 : Fin 1) q k) fun ax => ?_
  match ax with
  | ⟨0, _⟩ => show 0 = if (1 : Nat) = 1 then 0 else r.val; rw [if_pos rfl]
  | ⟨1, _⟩ => show q.val = if (128 : Nat) = 1 then 0 else q.val; rw [if_neg (by decide)]
  | ⟨2, _⟩ => show k.val = if (128 : Nat) = 1 then 0 else k.val; rw [if_neg (by decide)]

/-- The first 128 columns of a [128, 256] block, at `(r, k)`: the block at `(r, k)`. -/
theorem ld_lo {F : FTy → Type} (x : Vec F S128x256 .f32) (r k : Fin 128) : View.ld x loCols (ix2 r k) = x (ix2 r (lo k)) :=
  congrArg x (funext fun a => Fin.ext (by
    match a with
    | ⟨0, _⟩ => show 0 + 1 * r.val = r.val; omega
    | ⟨1, _⟩ => show 0 + 1 * k.val = k.val; omega))

/-- The last 128 columns of a [128, 256] block, at `(r, k)`: the block at `(r, 128 + k)`. -/
theorem ld_hi {F : FTy → Type} (x : Vec F S128x256 .f32) (r k : Fin 128) : View.ld x hiCols (ix2 r k) = x (ix2 r (hi k)) :=
  congrArg x (funext fun a => Fin.ext (by
    match a with
    | ⟨0, _⟩ => show 0 + 1 * r.val = r.val; omega
    | ⟨1, _⟩ => show 128 + 1 * k.val = 128 + k.val; omega))

end Layout

/-! ## One half's reduction -/

section AnyReading
variable {F : FTy → Type} [FloatOps F]

/-- The reduction of one half: from a [128, 128] batch half `xs` and a [128, 128] probe half `ps`, the [128, 128]
    block of sums over the last axis of the selected values. -/
def halfSum (xs ps : FVec F S128x128 .f32) : FVec F S128x128 .f32 :=
  multiReduction .add [2] S128x128
    (select
      (cmpf .ole
        (broadcastTo S128x128x128 (shapeCast S1x128x128 ps shapeCasts_S128x128_S1x128x128) broadcasts_S1x128x128_S128x128x128)
        (broadcastTo S128x128x128 (shapeCast S128x1x128 xs shapeCasts_S128x128_S128x1x128) broadcasts_S128x1x128_S128x128x128))
      (broadcast S128x128x128 (Scalar.ofBits .f32 0x3F800000#32 : F .f32))
      (broadcastTo S128x128x128
        (shapeCast S128x1x128 (shapeCast S128x1x128 xs shapeCasts_S128x128_S128x1x128) shapeCasts_S128x1x128_S128x1x128)
        broadcasts_S128x1x128_S128x128x128))
    0x00000000#32 reduces_S128x128x128_S128x128 (.inl rfl) rfl

/-- The accumulator's first store is the zero block. -/
theorem pay3_eq : (k0_pay3 : FVec F S128x128 .f32) = broadcast S128x128 (Scalar.ofBits .f32 0x00000000#32 : F .f32) := by
  unfold k0_pay3; exact shapeCast_self _ _

/-- The first half adds its reduction to the accumulator. -/
theorem pay4_eq (v4 v5 v15 : FVec F S128x128 .f32) : k0_pay4 v4 v5 v15 = addf v15 (halfSum v4 v5) := by
  unfold k0_pay4 halfSum; exact shapeCast_self _ _

/-- The second half adds its reduction to the accumulator. -/
theorem pay5_eq (v21 v22 v32 : FVec F S128x128 .f32) : k0_pay5 v21 v22 v32 = addf v32 (halfSum v21 v22) := rfl

/-- The accumulator is stored back unchanged. -/
theorem pay1_eq (v34 : FVec F S128x128 .f32) : k0_pay1 v34 = v34 := by
  unfold k0_pay1; exact shapeCast_self _ _

/-- The output is the accumulator times the constant block. -/
theorem pay2_eq (v38 : FVec F S128x128 .f32) :
    k0_pay2 v38 = mulf v38 (broadcast S128x128 (Scalar.ofBits .f32 0x3B800000#32 : F .f32)) := rfl

end AnyReading

/-- The source position over result entry `(r, q)` with coordinate `k` on the reduced axis is `(r, q, k)`. -/
theorem lift_eq (r q k : Fin 128) : reduces_S128x128x128_S128x128.lift (ix2 r q) k = ix3 r q k :=
  funext fun a => Fin.ext (by match a with | ⟨0, _⟩ => rfl | ⟨1, _⟩ => rfl | ⟨2, _⟩ => rfl)

/-- ONE HALF AT AN ENTRY, on the extended reals: the sum over the 128 positions of the Gödel implication between probe
    row `q` and batch row `r`. -/
theorem halfSum_apply (xs ps : FVec Ideal S128x128 .f32) (r q : Fin 128) :
    halfSum xs ps (ix2 r q) = ∑ k : Fin 128, impl (xs (ix2 r k)) (ps (ix2 q k)) := by
  unfold halfSum
  refine (Ideal.multiReduction_add_single _ 0x00000000#32 reduces_S128x128x128_S128x128 (.inl rfl) rfl (ix2 r q)).trans ?_
  refine Finset.sum_congr rfl fun (k : Fin 128) _ => ?_
  rw [lift_eq r q k, select_apply, cmpf_apply, broadcast_apply, bcast_probe_apply, bcast_batch_apply, bcast_batch_apply,
    shapeCast_ab_1ab_apply, shapeCast_self, cast_mid_unit_apply]
  rfl

/-- THE BODY'S BLOCK AT AN ENTRY: the chunked mean of the Gödel implication between probe-block row `q` and
    batch-block row `r`. -/
theorem bodyVal_apply (x0 x1 : Vec Ideal S128x256 .f32) (r q : Fin 128) :
    bodyVal (F := Ideal) x0 x1 (ix2 r q) = chunked fun k => impl (x0 (ix2 r k)) (x1 (ix2 q k)) := by
  unfold bodyVal
  rw [pay2_eq, pay1_eq, pay5_eq, pay4_eq, pay3_eq, mulf_apply, addf_apply, addf_apply, halfSum_apply, halfSum_apply]
  have elo : ∀ k : Fin 128, impl (View.ld x0 loCols (ix2 r k)) (View.ld x1 loCols (ix2 q k))
      = impl (x0 (ix2 r (lo k))) (x1 (ix2 q (lo k))) := fun k => by rw [ld_lo, ld_lo]
  have ehi : ∀ k : Fin 128, impl (View.ld x0 hiCols (ix2 r k)) (View.ld x1 hiCols (ix2 q k))
      = impl (x0 (ix2 r (hi k))) (x1 (ix2 q (hi k))) := fun k => by rw [ld_hi, ld_hi]
  rw [Finset.sum_congr rfl fun k _ => elo k, Finset.sum_congr rfl fun k _ => ehi k]
  rfl

/-- A BLOCK ENTRY AGAINST THE SPECIFICATION: if row `r` of the batch block is row `b` of the batch array and row `q` of the
    probe block is row `p` of the probe array, then entry `(r, q)` of the body's block is entry `(b, p)` of the
    specification — the chunked mean is the mean. -/
theorem block_entry (X : (⟨2, ![2048, 256]⟩ : Shape).Idx → EReal) (P : (⟨2, ![512, 256]⟩ : Shape).Idx → EReal)
    (x0 x1 : Vec Ideal S128x256 .f32) (r q : Fin 128) (b : Fin 2048) (p : Fin 512)
    (h0 : ∀ k : Fin 256, x0 (ix2 r k) = X (ix2 b k)) (h1 : ∀ k : Fin 256, x1 (ix2 q k) = P (ix2 p k)) :
    bodyVal (F := Ideal) x0 x1 (ix2 r q) = result X P (ix2 b p) := by
  rw [bodyVal_apply, result_ix2, chunked_eq_mean]
  unfold entry
  exact congrArg mean (funext fun k => by rw [h0 k, h1 k])

end Cert.KernelIdeal.BodyAt

end
-- ==== Proof.ArrayValue.lean ====
/-
  From blocks to the whole array: what the kernel's result array holds after the run.

  The grid has 16 × 4 points; point `(i, j)` reads rows `128·i …` of the batch (all 256 columns), rows `128·j …` of
  the probes (all 256 columns), and writes back block `(i, j)` of the [2048, 512] result, 128 × 128 entries.  Entry
  `(r, q)` of that block is array entry `(128·i + r, 128·j + q)`, and it is computed from batch row `128·i + r` and
  probe row `128·j + q`: so every point writes back its block of ONE whole-array function, the specification.  The
  64 blocks tile the array (entry `(b, p)` lies in the block of point `(b / 128, p / 128)`), so the array ends
  holding the specification everywhere.
-/
import proofs.«133339_j89498528514849_1_alg».proof.Proof.Gen.KernelIdeal.Value
import proofs.«133339_j89498528514849_1_alg».proof.Proof.BodyAt
import proofs.«133339_j89498528514849_1_alg».proof.Proof.Spec
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.BodyValue Cert.KernelIdeal.BodyAt
open Idealize.ShloMosaic.ValueIdx Cert.GodelMean

variable (m : (ℓ : Loc nD τ sig) → Buf (Elt Ideal) ℓ) (ρ : Dev nD → PrngReg)

/-- The three index maps, decided over the 64 grid points: the batch window follows the output's row block and
    stays at column block 0, the probe window follows the output's column block and stays at column block 0, and
    the output's block indices stay inside 16 × 4. -/
theorem idx_facts : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 15
    ∧ win0_2.index t (1 : Fin 2) ≤ 3 :=
  (by decide +kernel : ∀ t : Fin grid0.N, _)

/-- Every block of the 16 × 4 tiling is some point's. -/
theorem idx_onto : ∀ (q0 : Fin 16) (q1 : Fin 4), ∃ t : Fin cfg0.N, win0_2.index t = ![q0.val, q1.val] :=
  (by decide +kernel : ∀ (q0 : Fin 16) (q1 : Fin 4), ∃ t : Fin grid0.N, win0_2.index t = ![q0.val, q1.val])

/-- WHAT POINT `t` WRITES BACK is block `t` of the specification of the argument arrays. -/
theorem flushed_eq (c : Dev nD) (t : Fin cfg0.N) :
    (dats m 0 c).flushed 2 t
      = ((cfg0.win 2).blk t).view.read (Elt Ideal) (result (V m c main_arg0) (V m c main_arg1)) := by
  rw [Cert.KernelIdeal.Value.flushed2_A, out_eq_bodyVal]
  obtain ⟨e0, e1, e2, e3, e4, e5⟩ := idx_facts t
  funext j
  have hj0 : (j 0).val < 128 := (j 0).isLt
  have hj1 : (j 1).val < 128 := (j 1).isLt
  show bodyVal (F := Ideal) (iblk m c 0 t) (iblk m c 1 t) j
    = result (V m c main_arg0) (V m c main_arg1) (((cfg0.win 2).blk t).view.emb j)
  have ej : j = ix2 (⟨(j 0).val, hj0⟩ : Fin 128) (⟨(j 1).val, hj1⟩ : Fin 128) :=
    funext fun a => by match a with | ⟨0, _⟩ => rfl | ⟨1, _⟩ => rfl
  have ei : ((cfg0.win 2).blk t).view.emb j
      = ix2 (⟨win0_2.index t (0 : Fin 2) * 128 + (j 0).val, by omega⟩ : Fin 2048)
          (⟨win0_2.index t (1 : Fin 2) * 128 + (j 1).val, by omega⟩ : Fin 512) :=
    funext fun a => Fin.ext (by
      match a with
      | ⟨0, _⟩ => show win0_2.index t (0 : Fin 2) * 128 + 1 * (j 0).val = win0_2.index t (0 : Fin 2) * 128 + (j 0).val; omega
      | ⟨1, _⟩ => show win0_2.index t (1 : Fin 2) * 128 + 1 * (j 1).val = win0_2.index t (1 : Fin 2) * 128 + (j 1).val; omega)
  rw [ei]
  refine (congrArg (bodyVal (F := Ideal) (iblk m c 0 t) (iblk m c 1 t)) ej).trans ?_
  refine block_entry (V m c main_arg0) (V m c main_arg1) (iblk m c 0 t) (iblk m c 1 t) _ _ _ _ (fun k => ?_) (fun k => ?_)
  · show V m c main_arg0 (((cfg0.win 0).blk t).view.emb (ix2 (⟨(j 0).val, hj0⟩ : Fin 128) k)) = _
    refine congrArg (V m c main_arg0) (funext fun a => Fin.ext ?_)
    match a with
    | ⟨0, _⟩ => show win0_0.index t (0 : Fin 2) * 128 + 1 * (j 0).val = win0_2.index t (0 : Fin 2) * 128 + (j 0).val; omega
    | ⟨1, _⟩ => show win0_0.index t (1 : Fin 2) * 256 + 1 * k.val = k.val; omega
  · show V m c main_arg1 (((cfg0.win 1).blk t).view.emb (ix2 (⟨(j 1).val, hj1⟩ : Fin 128) k)) = _
    refine congrArg (V m c main_arg1) (funext fun a => Fin.ext ?_)
    match a with
    | ⟨0, _⟩ => show win0_1.index t (0 : Fin 2) * 128 + 1 * (j 1).val = win0_2.index t (1 : Fin 2) * 128 + (j 1).val; omega
    | ⟨1, _⟩ => show win0_1.index t (1 : Fin 2) * 256 + 1 * k.val = k.val; omega

/-- An index of the array is in point `t`'s block iff each coordinate is in the block's range on its axis. -/
theorem mem_blk (t : Fin cfg0.N) (i : S2048x512.Idx) :
    i ∈ ((cfg0.win 2).blk t).view.set ↔ ∀ a : Fin 2, win0_2.index t a * S128x128.size a ≤ (i a).val
      ∧ (i a).val < win0_2.index t a * S128x128.size a + S128x128.size a := by
  show i ∈ ((View.whole main_v0).slice (win0_2.rect t)).set ↔ _
  rw [View.set_slice_whole, Rect.mem_set_unit]
  exact Iff.rfl

/-- THE COVER: entry `(b, p)` of the array lies in the block of the point whose block index is `(b / 128, p / 128)`. -/
theorem cover (i : S2048x512.Idx) :
    ∃ t : Fin cfg0.N, (cfg0.win 2).flush t = true ∧ i ∈ ((cfg0.win 2).blk t).view.set := by
  have hi0 : (i 0).val < 2048 := (i 0).isLt
  have hi1 : (i 1).val < 512 := (i 1).isLt
  obtain ⟨t, ht⟩ := idx_onto ⟨(i 0).val / 128, by omega⟩ ⟨(i 1).val / 128, by omega⟩
  have q0 : win0_2.index t (0 : Fin 2) = (i 0).val / 128 := congrFun ht 0
  have q1 : win0_2.index t (1 : Fin 2) = (i 1).val / 128 := congrFun ht 1
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 128 ≤ (i 1).val ∧ (i 1).val < win0_2.index t (1 : Fin 2) * 128 + 128; omega

/-- THE ARRAY after the run: the specification of the argument arrays. -/
theorem final (c : Dev nD) :
    (dats m 0 c).arrAt 2 cfg0.N = result (V m c main_arg0) (V m c main_arg1) :=
  (dats m 0 c).arrAt_eq_of_cover 2 (result (V m c main_arg0) (V m c main_arg1)) (fun t _ => flushed_eq m c t) cover

/-- THE KERNEL'S RUN, READ: every weakly fair execution ends with the result array at the specification of the
    arguments as launched, the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.ArrayValue

end
-- ==== Proof.lean ====
/-
  The kernel and its reference compute the same [2048, 512] array over the extended reals.

  Entry `(b, p)` of the result is the mean over the 256 positions `k` of the Gödel implication `probes[p, k] → X[b, k]`:
  `1` where `probes[p, k] ≤ X[b, k]`, else `X[b, k]`.  The reference takes the sum over all 256 positions from zero and
  divides by `256`.  The kernel works block by block on a 16 × 4 grid: at each point it adds, to a zeroed [128, 128]
  accumulator, first the sums over positions 0 … 127 and then the sums over positions 128 … 255, and writes back the
  accumulator times `2⁻⁸`.

  The law that joins them (Proof/Spec.lean): a finite sum of extended reals may be split into two halves, adding zero
  changes nothing, and dividing by the real 256 is multiplying by the real `1/256` at every extended real.  None of
  this needs the inputs finite, so the precondition is never opened.

  The pieces: Proof/Spec.lean states the result as one function of the two arrays and proves the law;
  Proof/RefValue.lean reads the reference's generated run entry by entry and finds that function;
  Proof/BodyValue.lean reads what the kernel body leaves in its output block as one pure term of its input blocks;
  Proof/BodyAt.lean reads that term at an entry; Proof/ArrayValue.lean shows every grid point writes back its block
  of the one function and that the 64 blocks tile the array.  The three frames are the generated ones (the
  reference's is its generated run with the result forgotten); the idealization rewrote nothing, so it is preserved
  trivially.
-/
import proofs.«133339_j89498528514849_1_alg».proof.Defs
import proofs.«133339_j89498528514849_1_alg».proof.Proof.Gen.Kernel
import proofs.«133339_j89498528514849_1_alg».proof.Proof.Gen.Kernel.Frame
import proofs.«133339_j89498528514849_1_alg».proof.Proof.Gen.KernelIdeal
import proofs.«133339_j89498528514849_1_alg».proof.Proof.Gen.KernelIdeal.Frame
import proofs.«133339_j89498528514849_1_alg».proof.Proof.Gen.KernelIdeal.Value
import proofs.«133339_j89498528514849_1_alg».proof.Proof.Gen.ReferenceIdeal
import proofs.«133339_j89498528514849_1_alg».proof.Proof.Gen.ReferenceIdeal.Run
import proofs.«133339_j89498528514849_1_alg».proof.Proof.Gen.ReferenceIdeal.Read
import proofs.«133339_j89498528514849_1_alg».proof.Proof.Gen.Pre_finite_inputs
import proofs.«133339_j89498528514849_1_alg».proof.Proof.Spec
import proofs.«133339_j89498528514849_1_alg».proof.Proof.RefValue
import proofs.«133339_j89498528514849_1_alg».proof.Proof.ArrayValue
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with what it says of the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array ends at the specification of its arguments, and the reference's at
    the specification of arguments that agree with them: the same array. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq_result, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
